-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S5000x128 : Shape := ⟨2, ![5000, 128]⟩
abbrev S5000x32 : Shape := ⟨2, ![5000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 125
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x32, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x32, .f32⟩
  | .hbm, ⟨115, _⟩ => ⟨S1700000x1, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  dot_S5000x128_S128x32_S5000x32_1_0_0_1_n_n_wf : DotDims.WF S5000x128 S128x32 S5000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x32, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x32, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x32, .f32⟩
  | .hbm, ⟨115, _⟩ => ⟨S1700000x1, .f32⟩
  | .hbm, ⟨116, _⟩ => ⟨S1700000x32, .f32⟩
  | .hbm, ⟨117, _⟩ => ⟨S1700000x32, .f32⟩
  | .hbm, ⟨118, _⟩ => ⟨S_, .f32⟩
  | .hbm, ⟨119, _⟩ => ⟨S100000x32, .f32⟩
  | .hbm, ⟨120, _⟩ => ⟨S1700000x1, .i32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.KernelRun.lean ====
/-
  The idealized kernel's run with every buffer named at the end. @main is ten segments: host operations, the first
  pallas_call, host operations (the graph aggregation of the first layer and the relu), the second pallas_call,
  host operations (the aggregation of the second layer). The frame certificate threads the contents of every
  unscoped buffer through these segments as a fold from the launch memory — a host stretch applies its
  operations, a region replaces its output array by what its write-backs leave — and ends at the contents W10.

  Here the same launch is stated with the reading of the final state left open: every weakly fair execution
  terminates, and in its final memory every unscoped buffer b of core c holds W10 c b. Reading the result
  buffer and the six argument buffers gives the run the value claim needs.
-/
import proofs.«104350_j14637248544872_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and any
    property of the final memory that follows from "every unscoped buffer holds the last boundary's contents"
    holds of it. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the result buffer read: it ends holding the last boundary's contents of `main_v90`, the six
    argument arrays as launched. -/
theorem run_result : θ_run defs (onTc (τ := τ) (main (F := F))) ⟨m, fun _ => 0, ρ⟩ (fun r => ∀ c : Dev nD,
      r.2.mem ((c.tc : Thread nD τ).loc main_v90) = W10 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_final m ρ fun s h c =>
    ⟨h c _ (mem_uc main_v90 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩

end Cert.KernelIdeal.RunValue

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.Region0.lean ====
/-
  Region 0, read as a whole-array function. The first pallas_call runs over 20 grid points; point t stages rows
  [5000 t, 5000 t + 5000) of the 100000 × 128 operand and the whole 128 × 32 weight, multiplies them into a zero
  accumulator (the change of float format in front of the product is the identity on the extended reals) and
  writes the 5000 × 32 product back as rows [5000 t, 5000 t + 5000) of the output array.

  Row r of X · W only reads row r of X, so the block written by point t is the block of the whole product
  X · W (the row-tile law of the tile library); the twenty blocks cover every row, r lying in block r / 5000. Hence
  the output array after the region is X · W, a sum over the 128 contracted entries at every index, whatever
  the contents X, W the region is entered with.
-/
import proofs.«104350_j14637248544872_1_alg».proof.Proof.Gen.KernelIdeal.Frame
import proofs.«104350_j14637248544872_1_alg».proof.Proof.LibTile
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks into the zero accumulator. -/
theorem product0 (x0 : Vec Ideal S5000x128 .f32) (x1 : Vec Ideal S128x32 .f32) :
    k0_pay1 x0 x1 = Ideal.matmul (DotDims.plain 5000 128 32) x0 x1 (fun _ => Ideal.ofBits .f32 0x00000000#32) := rfl

/-- The whole product of the arrays the region is entered with. -/
def whole0 (c : Dev nD) : S100000x32.Idx → EReal :=
  Ideal.matmul (DotDims.plain 100000 128 32) (V c main_arg0) (V c main_arg2) (fun _ => 0)

/-- The printed index maps over the grid: the row operand and the output move one block of rows per point, the
    weight stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point t is rows [5000 t, 5000 t + 5000) of the array. -/
theorem rows0 (c : Dev nD) (t : Fin cfg0.N) (ht : t.val * 5000 + 5000 ≤ 100000) :
    Cert.Tile.IsTile (T := 5000) (M := 100000) (C := 128) (t.val * 5000) ht (iblk0 V c 0 t) (V c main_arg0) := by
  obtain ⟨e00, e01, -, -, -, -⟩ := index_maps0 t
  intro p l
  show V c main_arg0 (((cfg0.win 0).blk t).view.emb (ix2 p l)) = V c main_arg0 (ix2 ⟨t.val * 5000 + p.val, by omega⟩ l)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * l.val = l.val; omega

/-- The weight's block at every point is the whole weight. -/
theorem weight0 (c : Dev nD) (t : Fin cfg0.N) : iblk0 V c 1 t = V c main_arg2 := by
  obtain ⟨-, -, e10, e11, -, -⟩ := index_maps0 t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- Entry y of the product of point t's blocks is the whole product's entry where the output block puts y. -/
theorem block_value0 (c : Dev nD) (t : Fin cfg0.N) (y : S5000x32.Idx) :
    Ideal.matmul (DotDims.plain 5000 128 32) (iblk0 V c 0 t) (iblk0 V c 1 t) (fun _ => Ideal.ofBits .f32 0x00000000#32) y
      = whole0 V c (((cfg0.win 2).blk t).view.emb y) := by
  have hN : cfg0.N = 20 := N_0
  have htl : t.val < 20 := by have := t.isLt; omega
  have ht : t.val * 5000 + 5000 ≤ 100000 := by omega
  obtain ⟨-, -, -, -, e20, e21⟩ := index_maps0 t
  obtain ⟨p, q, rfl⟩ : ∃ (p : Fin 5000) (q : Fin 32), y = ix2 p q := ⟨y 0, y 1, eq_ix2 y⟩
  rw [weight0]
  refine (Cert.Tile.matmul (V c main_arg2) (rows0 V c t ht) p q).trans ?_
  show whole0 V c (ix2 ⟨t.val * 5000 + p.val, by omega⟩ q) = whole0 V c (((cfg0.win 2).blk t).view.emb (ix2 p q))
  refine congrArg (whole0 V c) (funext fun a => Fin.ext ?_)
  match a with
  | ⟨0, _⟩ => show t.val * 5000 + p.val = win0_2.index t (0 : Fin 2) * 5000 + 1 * p.val; omega
  | ⟨1, _⟩ => show q.val = win0_2.index t (1 : Fin 2) * 32 + 1 * q.val; omega

/-- What point t writes back is block t of the whole product. -/
theorem flushed0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x32) zero_offsets]
  rw [product0]
  funext j
  exact block_value0 V c t j

/-- An index of the output array lies in point t's block iff its row is among the block's rows (and its column
    among the 32 columns). -/
theorem mem_block0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v4).slice (win0_2.rect t)).set ↔ _
  rw [View.set_slice_whole, Rect.mem_set_unit]
  exact Iff.rfl

/-- Every index is written back by some point: row r by point r / 5000. -/
theorem cover0 (i : S100000x32.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 32 := (i 1).isLt
  have hlt : (i 0).val / 5000 < cfg0.N := by omega
  obtain ⟨-, -, -, -, e20, e21⟩ := index_maps0 ⟨(i 0).val / 5000, hlt⟩
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, hlt⟩ (1 : Fin 2) * 32 ≤ (i 1).val ∧ (i 1).val < win0_2.index ⟨(i 0).val / 5000, hlt⟩ (1 : Fin 2) * 32 + 32
    rw [e21]
    omega

/-- The output array after the region is the whole product of the arrays it was entered with. -/
theorem final0 (c : Dev nD) : (dat0 V c).arrAt 2 cfg0.N = whole0 V c :=
  (dat0 V c).arrAt_eq_of_cover 2 (whole0 V c) (fun t _ => flushed0 V c t) (cover0)

end Cert.KernelIdeal.RegionValue

end
-- ==== Proof.Region1.lean ====
/-
  Region 1, read as a whole-array function. The second pallas_call is the first one over again on the hidden
  features: point t stages rows [5000 t, 5000 t + 5000) of the 100000 × 32 array of relu'd first-layer outputs and
  the whole 32 × 32 weight, multiplies them into a zero accumulator (a shape cast to the same shape and the change
  of float format in front of the product are identities on the extended reals) and writes the product back as
  rows [5000 t, 5000 t + 5000) of the output array.

  As in region 0: the block written by point t is the block of the whole product H · W by the row-tile law, the
  twenty blocks cover every row, and the output array after the region is H · W, a sum over the 32 contracted
  entries at every index.
-/
import proofs.«104350_j14637248544872_1_alg».proof.Proof.Region0

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's stored value is the product of its two loaded blocks into the zero accumulator. -/
theorem product1 (x0 : Vec Ideal S5000x32 .f32) (x1 : Vec Ideal S32x32 .f32) :
    k1_pay1 x0 x1 = Ideal.matmul (DotDims.plain 5000 32 32) x0 x1 (fun _ => Ideal.ofBits .f32 0x00000000#32) := by
  unfold k1_pay1
  rw [shapeCast_self]
  rfl

/-- The whole product of the arrays the region is entered with. -/
def whole1 (c : Dev nD) : S100000x32.Idx → EReal :=
  Ideal.matmul (DotDims.plain 100000 32 32) (V c main_v47) (V c main_arg4) (fun _ => 0)

/-- The printed index maps over the grid: the row operand and the output move one block of rows per point, the
    weight stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row operand's block at point t is rows [5000 t, 5000 t + 5000) of the array. -/
theorem rows1 (c : Dev nD) (t : Fin cfg1.N) (ht : t.val * 5000 + 5000 ≤ 100000) :
    Cert.Tile.IsTile (T := 5000) (M := 100000) (C := 32) (t.val * 5000) ht (iblk1 V c 0 t) (V c main_v47) := by
  obtain ⟨e00, e01, -, -, -, -⟩ := index_maps1 t
  intro p l
  show V c main_v47 (((cfg1.win 0).blk t).view.emb (ix2 p l)) = V c main_v47 (ix2 ⟨t.val * 5000 + p.val, by omega⟩ l)
  refine congrArg (V c main_v47) (funext fun a => Fin.ext ?_)
  match a with
  | ⟨0, _⟩ => show win1_0.index t (0 : Fin 2) * 5000 + 1 * p.val = t.val * 5000 + p.val; omega
  | ⟨1, _⟩ => show win1_0.index t (1 : Fin 2) * 32 + 1 * l.val = l.val; omega

/-- The weight's block at every point is the whole weight. -/
theorem weight1 (c : Dev nD) (t : Fin cfg1.N) : iblk1 V c 1 t = V c main_arg4 := by
  obtain ⟨-, -, e10, e11, -, -⟩ := index_maps1 t
  funext y
  show V c main_arg4 (((cfg1.win 1).blk t).view.emb y) = V c main_arg4 y
  refine congrArg (V c main_arg4) (funext fun a => Fin.ext ?_)
  match a with
  | ⟨0, _⟩ => show win1_1.index t (0 : Fin 2) * 32 + 1 * (y 0).val = (y 0).val; omega
  | ⟨1, _⟩ => show win1_1.index t (1 : Fin 2) * 32 + 1 * (y 1).val = (y 1).val; omega

/-- Entry y of the product of point t's blocks is the whole product's entry where the output block puts y. -/
theorem block_value1 (c : Dev nD) (t : Fin cfg1.N) (y : S5000x32.Idx) :
    Ideal.matmul (DotDims.plain 5000 32 32) (iblk1 V c 0 t) (iblk1 V c 1 t) (fun _ => Ideal.ofBits .f32 0x00000000#32) y
      = whole1 V c (((cfg1.win 2).blk t).view.emb y) := by
  have hN : cfg1.N = 20 := N_1
  have htl : t.val < 20 := by have := t.isLt; omega
  have ht : t.val * 5000 + 5000 ≤ 100000 := by omega
  obtain ⟨-, -, -, -, e20, e21⟩ := index_maps1 t
  obtain ⟨p, q, rfl⟩ : ∃ (p : Fin 5000) (q : Fin 32), y = ix2 p q := ⟨y 0, y 1, eq_ix2 y⟩
  rw [weight1]
  refine (Cert.Tile.matmul (V c main_arg4) (rows1 V c t ht) p q).trans ?_
  show whole1 V c (ix2 ⟨t.val * 5000 + p.val, by omega⟩ q) = whole1 V c (((cfg1.win 2).blk t).view.emb (ix2 p q))
  refine congrArg (whole1 V c) (funext fun a => Fin.ext ?_)
  match a with
  | ⟨0, _⟩ => show t.val * 5000 + p.val = win1_2.index t (0 : Fin 2) * 5000 + 1 * p.val; omega
  | ⟨1, _⟩ => show q.val = win1_2.index t (1 : Fin 2) * 32 + 1 * q.val; omega

/-- What point t writes back is block t of the whole product. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero zero_offsets]
  simp only [View.ld_unit_zero (S := S5000x32) zero_offsets, View.ld_unit_zero (S := S32x32) zero_offsets]
  rw [product1]
  funext j
  exact block_value1 V c t j

/-- An index of the output array lies in point t's block iff its row is among the block's rows (and its column
    among the 32 columns). -/
theorem mem_block1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every index is written back by some point: row r by point r / 5000. -/
theorem cover1 (i : S100000x32.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 32 := (i 1).isLt
  have hlt : (i 0).val / 5000 < cfg1.N := by omega
  obtain ⟨-, -, -, -, e20, e21⟩ := index_maps1 ⟨(i 0).val / 5000, hlt⟩
  refine ⟨⟨(i 0).val / 5000, hlt⟩, flush1_2 _, ?_⟩
  rw [mem_block1]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, hlt⟩ (1 : Fin 2) * 32 ≤ (i 1).val ∧ (i 1).val < win1_2.index ⟨(i 0).val / 5000, hlt⟩ (1 : Fin 2) * 32 + 32
    rw [e21]
    omega

/-- The output array after the region is the whole product of the arrays it was entered with. -/
theorem final1 (c : Dev nD) : (dat1 V c).arrAt 2 cfg1.N = whole1 V c :=
  (dat1 V c).arrAt_eq_of_cover 2 (whole1 V c) (fun t _ => flushed1 V c t) (cover1)

end Cert.KernelIdeal.RegionValue

end
-- ==== Proof.Layer.lean ====
/-
  One graph-convolution layer, as a function. Given the transformed features h = H · W (100000 × 32), the edge
  sources s and destinations d (1.6 million node numbers each) and a bias b of 32 entries, a layer returns

      out(v, ·) = Σ over the edges e into v (self loops included) of  norm(e) · h(src e, ·)  +  b,
      norm(e) = deg(src e)^(-1/2) · deg(dst e)^(-1/2),   deg(v) = the number of edges into v, self loops included,

  with x^(-1/2) replaced by 0 where the degree is not positive. Both programs spell this with the same host
  operations, which the definitions below name piece by piece: the endpoint vectors extended by one self loop per
  node, the start indices a gather takes (a negative node number wraps by 100000, jnp's indexing rule), the degree
  vector as a scatter-add of ones, its guarded reciprocal square root, and the layer itself — a gather of the source
  rows of h, scaled by the normalisation repeated across the 32 columns, scatter-added at the destinations, plus the
  bias repeated down the rows. The whole network is two layers around two dense products and a relu.
-/
import proofs.«104350_j14637248544872_1_alg».proof.Proof.Gen.KernelIdeal
import Idealize.ShloMosaic.Lib.StableHlo.Run

noncomputable section

namespace Cert.KernelIdeal.Layer

open Cert.KernelIdeal Idealize.ShloMosaic Idealize.ShloMosaic.TcCoe Idealize.ShloMosaic.StableHlo
open Facts₀ Facts

variable {F : FTy → Type} [FloatOps F]

/-- Row 0 of the 2 × 1600000 edge list: the edge sources. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1: the edge destinations. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- An endpoint vector followed by the node numbers 0 … 99999: one self loop per node. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

/-- The column of start indices a gather takes from node numbers: a negative number wraps by 100000. -/
def startIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The degrees: ones scatter-added at the destinations (self loops included) into zeros. -/
def degree (d : (⟨S1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (withLoops d)) (broadcastInDim S1700000 ![] bcast_S_S1700000 (constant S_ .f32 0x3F800000#32))

/-- deg^(-1/2) where the degree is positive, 0 elsewhere. -/
def invSqrtDeg (d : (⟨S1600000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The layer: source rows of `h` gathered, scaled by the edge normalisation, scatter-added at the destinations,
    plus the bias. -/
def layerOf (h : (⟨S100000x32, .f32⟩ : BufTy).Contents (Elt F)) (s d : (⟨S1600000, .i32⟩ : BufTy).Contents (Elt F)) (b : (⟨S32, .f32⟩ : BufTy).Contents (Elt F)) :
    (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 (withLoops d)) (mulf (Host.gather gather_S100000x32_S1700000x1_S1700000x32_1_0_n_n_0_1_132 h (startIdx (withLoops s))) (broadcastInDim S1700000x32 ![0, 1] bcast_S1700000x1_S1700000x32_0_1 (broadcastInDim S1700000x1 ![0] bcast_S1700000_S1700000x1_0 (mulf (Host.gather gather_S100000_S1700000x1_S1700000_n_0_n_n_0_1_1 (invSqrtDeg d) (startIdx (withLoops s))) (Host.gather gather_S100000_S1700000x1_S1700000_n_0_n_n_0_1_1 (invSqrtDeg d) (startIdx (withLoops d)))))))) (broadcastInDim S100000x32 ![0, 1] bcast_S1x32_S100000x32_0_1 (broadcastInDim S1x32 ![1] bcast_S32_S1x32_1 b))

/-- max(·, 0), entry by entry. -/
def relu (a : (⟨S100000x32, .f32⟩ : BufTy).Contents (Elt F)) : (⟨S100000x32, .f32⟩ : BufTy).Contents (Elt F) :=
  maximumf a (broadcastInDim S100000x32 ![] bcast_S_S100000x32 (constant S_ .f32 0x00000000#32))

/-- The two-layer network of the six arguments, each dense product taken whole. -/
def network (x0 : (⟨S100000x128, .f32⟩ : BufTy).Contents (Elt F)) (x1 : (⟨S2x1600000, .i32⟩ : BufTy).Contents (Elt F))
    (x2 : (⟨S128x32, .f32⟩ : BufTy).Contents (Elt F)) (x3 : (⟨S32, .f32⟩ : BufTy).Contents (Elt F))
    (x4 : (⟨S32x32, .f32⟩ : BufTy).Contents (Elt F)) (x5 : (⟨S32, .f32⟩ : BufTy).Contents (Elt F)) :
    (⟨S100000x32, .f32⟩ : BufTy).Contents (Elt F) :=
  layerOf (Host.dotGeneral (DotDims.plain 100000 32 32) none
      (relu (layerOf (Host.dotGeneral (DotDims.plain 100000 128 32) none x0 x2) (srcOf x1) (dstOf x1) x3)) x4)
    (srcOf x1) (dstOf x1) x5

/-- A transport along an equation between a type and itself is the identity. The host operations of an inlined
    function body read and write their buffers through such transports (the buffer's declared type against the
    value's type, equal by evaluation of the signature's table); rewriting with this lemma removes them. -/
theorem cast_same {α : Type} (h : α = α) (v : α) : cast h v = v := rfl

/-- The contents of a reference after one more host operation: the operation's value at its own result, what was
    there at any other reference (the references told apart by evaluation) — the library's result lemmas as
    rewrites, for the operands that sit inside a concatenation's list of pairs. -/
macro "peel_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Cert.KernelIdeal.Layer

end
-- ==== Proof.RefSide.lean ====
/-
  The reference computes the network. Its @main is the two layers with each dense product one whole host product;
  its run ends with the result at the composed term of those host operations of the arguments, which is the
  network of Proof/Layer.lean operation by operation (the two programs' shape records carry different names for
  the same data).
-/
import proofs.«104350_j14637248544872_1_alg».proof.Proof.Layer
import proofs.«104350_j14637248544872_1_alg».proof.Proof.RefRunPatched
import Idealize.ShloMosaic.PureOps.Ideal

set_option maxRecDepth 16384

noncomputable section

namespace Cert.KernelIdeal.Layer

open Idealize.ShloMosaic Idealize.ShloMosaic.TcCoe Idealize.SL.Sem

/-- The reference's result term is the network of its own arguments. -/
theorem network_eq_reference (m' : (ℓ : Loc Cert.ReferenceIdeal.nD Cert.ReferenceIdeal.τ Cert.ReferenceIdeal.sig) → Buf (Elt Ideal) ℓ) (c : Dev Cert.ReferenceIdeal.nD) :
    network (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    = Cert.ReferenceIdeal.ValueP.res_main_v90 (F := Ideal) m' c := rfl

end Cert.KernelIdeal.Layer

end
-- ==== Proof.WalkTail.lean ====
/-
  The last host stretch. After the second pallas_call @main applies the second layer's graph operations to that
  region's output array: read at the result buffer, the contents at the last boundary are the layer of the region's
  output, of the edge sources and destinations (buffers older than the region) and of the second bias, all as the
  region left them.
-/
import proofs.«104350_j14637248544872_1_alg».proof.Proof.Layer
import proofs.«104350_j14637248544872_1_alg».proof.Proof.Gen.KernelIdeal.Frame
import Idealize.ShloMosaic.PureOps.Ideal

set_option maxRecDepth 16384

noncomputable section

namespace Cert.KernelIdeal.Walk

open Cert.KernelIdeal Cert.KernelIdeal.Gen Cert.KernelIdeal.Layer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 100000000 in
theorem tail_eq : W10 m ρ c (Proc.devRef .tc main_v90)
    = layerOf (F := Ideal) (W7 m ρ c (Proc.devRef .tc main_v48)) (W7 m ρ c (Proc.devRef .tc main_v1))
        (W7 m ρ c (Proc.devRef .tc main_v3)) (W7 m ρ c (Proc.devRef .tc main_arg5)) := by
  dsimp only [W10, W9, W8, hostOps2, hostOps2_1, hostOps2_2]
  after_results_simp
  peel_results
  dsimp only [TRef.toBuf, TRef.ofBuf]
  repeat rw [cast_same]
  rfl

end Cert.KernelIdeal.Walk

end
-- ==== Proof.WalkMid.lean ====
/-
  The middle host stretch. Between the two pallas_calls @main applies the first layer's graph operations to the
  first region's output array and takes the relu: read at the buffer the second region stages, the contents at
  that region's entry are the relu of the layer of the first region's output, of the edge sources and destinations
  and of the first bias, all as the first region left them. The buffers the stretch does not write — the edge
  sources and destinations, the second weight and bias — pass through it unchanged.
-/
import proofs.«104350_j14637248544872_1_alg».proof.Proof.Layer
import proofs.«104350_j14637248544872_1_alg».proof.Proof.Gen.KernelIdeal.Frame
import Idealize.ShloMosaic.PureOps.Ideal

set_option maxRecDepth 16384

noncomputable section

namespace Cert.KernelIdeal.Walk

open Cert.KernelIdeal Cert.KernelIdeal.Gen Cert.KernelIdeal.Layer
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 100000000 in
theorem mid_eq : W6 m ρ c (Proc.devRef .tc main_v47)
    = relu (F := Ideal) (layerOf (W2 m ρ c (Proc.devRef .tc main_v4)) (W2 m ρ c (Proc.devRef .tc main_v1))
        (W2 m ρ c (Proc.devRef .tc main_v3)) (W2 m ρ c (Proc.devRef .tc main_arg3))) := by
  dsimp only [W6, W5, W4, W3, hostOps1, hostOps1_1, hostOps1_2, hostOps1_3]
  after_results_simp
  peel_results
  dsimp only [TRef.toBuf, TRef.ofBuf]
  repeat rw [cast_same]
  rfl

set_option maxHeartbeats 100000000 in
theorem mid_src : W6 m ρ c (Proc.devRef .tc main_v1) = W2 m ρ c (Proc.devRef .tc main_v1) := by
  dsimp only [W6, W5, W4, W3, hostOps1, hostOps1_1, hostOps1_2, hostOps1_3]
  after_results_simp

set_option maxHeartbeats 100000000 in
theorem mid_dst : W6 m ρ c (Proc.devRef .tc main_v3) = W2 m ρ c (Proc.devRef .tc main_v3) := by
  dsimp only [W6, W5, W4, W3, hostOps1, hostOps1_1, hostOps1_2, hostOps1_3]
  after_results_simp

set_option maxHeartbeats 100000000 in
theorem mid_weight2 : W6 m ρ c (Proc.devRef .tc main_arg4) = W2 m ρ c (Proc.devRef .tc main_arg4) := by
  dsimp only [W6, W5, W4, W3, hostOps1, hostOps1_1, hostOps1_2, hostOps1_3]
  after_results_simp

set_option maxHeartbeats 100000000 in
theorem mid_bias2 : W6 m ρ c (Proc.devRef .tc main_arg5) = W2 m ρ c (Proc.devRef .tc main_arg5) := by
  dsimp only [W6, W5, W4, W3, hostOps1, hostOps1_1, hostOps1_2, hostOps1_3]
  after_results_simp

end Cert.KernelIdeal.Walk

end
-- ==== Proof.Bridge.lean ====
/-
  The kernel's result is the reference's. Both programs compute the two-layer network of Proof/Layer.lean; they
  differ only in the two dense products, which the reference takes whole and the kernel by a pallas_call over twenty
  row tiles. The kernel's result buffer is walked back through the contents at the segment boundaries:

    * the last host stretch makes it the second layer of the second region's output (Proof/WalkTail.lean);
    * the second region's output is the whole product of its entry contents (Proof/Region1.lean), and the region
      leaves every other buffer alone;
    * the middle host stretch makes the region's operand the relu of the first layer of the first region's output
      (Proof/WalkMid.lean);
    * the first region's output is the whole product of the launch arrays (Proof/Region0.lean);
    * the first host stretch cuts the edge list into sources and destinations.

  Composed, the result buffer holds the network of the launch arrays; the reference's composed term is the network
  of its own (Proof/RefSide.lean), and the arguments agree.
-/
import proofs.«104350_j14637248544872_1_alg».proof.Proof.KernelRun
import proofs.«104350_j14637248544872_1_alg».proof.Proof.Region0
import proofs.«104350_j14637248544872_1_alg».proof.Proof.Region1
import proofs.«104350_j14637248544872_1_alg».proof.Proof.Layer
import proofs.«104350_j14637248544872_1_alg».proof.Proof.RefSide
import proofs.«104350_j14637248544872_1_alg».proof.Proof.WalkTail
import proofs.«104350_j14637248544872_1_alg».proof.Proof.WalkMid

set_option maxRecDepth 16384

noncomputable section

namespace Cert.KernelIdeal.Bridge

open Cert.KernelIdeal Cert.KernelIdeal.Gen Cert.KernelIdeal.RegionValue Cert.KernelIdeal.Layer Cert.KernelIdeal.Walk
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Across the second region

The host's product of two arrays IS the sum over the contracted axis into a zero accumulator, so each region's whole
product is stated in the host's spelling. -/

/-- The second region's output array is the whole product of the relu'd hidden features and the second weight, both
    as the region finds them. -/
theorem across1_out : W7 m ρ c (Proc.devRef .tc main_v48)
    = Host.dotGeneral (F := Ideal) (DotDims.plain 100000 32 32) none
        (φ₁ := .f32) (φ₂ := .f32) (W6 m ρ c (Proc.devRef .tc main_v47)) (W6 m ρ c (Proc.devRef .tc main_arg4)) :=
  (W7_arr m ρ c 2).trans (final1 (V6 m ρ) c)

/-- The region leaves every buffer that is none of its arrays as it found it: the edge sources, the edge
    destinations, the second bias. -/
theorem across1_src : W7 m ρ c (Proc.devRef .tc main_v1) = W6 m ρ c (Proc.devRef .tc main_v1) := W7_of_ne m ρ c main_v1 (by decide)
theorem across1_dst : W7 m ρ c (Proc.devRef .tc main_v3) = W6 m ρ c (Proc.devRef .tc main_v3) := W7_of_ne m ρ c main_v3 (by decide)
theorem across1_bias : W7 m ρ c (Proc.devRef .tc main_arg5) = W6 m ρ c (Proc.devRef .tc main_arg5) := W7_of_ne m ρ c main_arg5 (by decide)

/-! ## Across the first region -/

/-- The first region's output array is the whole product of the node features and the first weight, both as the
    region finds them. -/
theorem across0_out : W2 m ρ c (Proc.devRef .tc main_v4)
    = Host.dotGeneral (F := Ideal) (DotDims.plain 100000 128 32) none
        (φ₁ := .f32) (φ₂ := .f32) (W1 m ρ c (Proc.devRef .tc main_arg0)) (W1 m ρ c (Proc.devRef .tc main_arg2)) :=
  (W2_arr m ρ c 2).trans (final0 (V1 m ρ) c)

theorem across0_src : W2 m ρ c (Proc.devRef .tc main_v1) = W1 m ρ c (Proc.devRef .tc main_v1) := W2_of_ne m ρ c main_v1 (by decide)
theorem across0_dst : W2 m ρ c (Proc.devRef .tc main_v3) = W1 m ρ c (Proc.devRef .tc main_v3) := W2_of_ne m ρ c main_v3 (by decide)
theorem across0_bias1 : W2 m ρ c (Proc.devRef .tc main_arg3) = W1 m ρ c (Proc.devRef .tc main_arg3) := W2_of_ne m ρ c main_arg3 (by decide)
theorem across0_weight2 : W2 m ρ c (Proc.devRef .tc main_arg4) = W1 m ρ c (Proc.devRef .tc main_arg4) := W2_of_ne m ρ c main_arg4 (by decide)
theorem across0_bias2 : W2 m ρ c (Proc.devRef .tc main_arg5) = W1 m ρ c (Proc.devRef .tc main_arg5) := W2_of_ne m ρ c main_arg5 (by decide)

/-! ## The first host stretch: the edge list cut into its two rows, the arguments untouched -/

theorem head_src : W1 m ρ c (Proc.devRef .tc main_v1) = srcOf (m ((c.tc : Thread nD τ).loc main_arg1)) := by
  dsimp only [W1, hostOps0]
  after_results_simp <;> rfl
theorem head_dst : W1 m ρ c (Proc.devRef .tc main_v3) = dstOf (m ((c.tc : Thread nD τ).loc main_arg1)) := by
  dsimp only [W1, hostOps0]
  after_results_simp <;> rfl
theorem head_arg0 : W1 m ρ c (Proc.devRef .tc main_arg0) = m ((c.tc : Thread nD τ).loc main_arg0) := by
  dsimp only [W1, hostOps0]
  after_results_simp <;> rfl
theorem head_arg2 : W1 m ρ c (Proc.devRef .tc main_arg2) = m ((c.tc : Thread nD τ).loc main_arg2) := by
  dsimp only [W1, hostOps0]
  after_results_simp <;> rfl
theorem head_arg3 : W1 m ρ c (Proc.devRef .tc main_arg3) = m ((c.tc : Thread nD τ).loc main_arg3) := by
  dsimp only [W1, hostOps0]
  after_results_simp <;> rfl
theorem head_arg4 : W1 m ρ c (Proc.devRef .tc main_arg4) = m ((c.tc : Thread nD τ).loc main_arg4) := by
  dsimp only [W1, hostOps0]
  after_results_simp <;> rfl
theorem head_arg5 : W1 m ρ c (Proc.devRef .tc main_arg5) = m ((c.tc : Thread nD τ).loc main_arg5) := by
  dsimp only [W1, hostOps0]
  after_results_simp <;> rfl

/-! ## Composed -/

/-- The result buffer at the last boundary holds the network of the launch arrays. -/
theorem kernel_result : W10 m ρ c (Proc.devRef .tc main_v90)
    = network (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [tail_eq, across1_out, across1_src, across1_dst, across1_bias,
    mid_eq, mid_src, mid_dst, mid_weight2, mid_bias2,
    across0_out, across0_src, across0_dst, across0_bias1, across0_weight2, across0_bias2,
    head_src, head_dst, head_arg0, head_arg2, head_arg3, head_arg4, head_arg5]
  rfl

/-- The contents of the result buffer at the last boundary are the reference's composed term of arguments that
    agree with the kernel's. -/
theorem result_eq (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    W10 m ρ c (Proc.devRef .tc main_v90) = Cert.ReferenceIdeal.ValueP.res_main_v90 (F := Ideal) m' c := by
  refine (kernel_result m ρ c).trans (Eq.trans ?_ (network_eq_reference m' c))
  rw [(hagree c).1, (hagree c).2.1, (hagree c).2.2.1, (hagree c).2.2.2.1, (hagree c).2.2.2.2.1, (hagree c).2.2.2.2.2]

end Cert.KernelIdeal.Bridge

end
-- ==== Proof.lean ====
/-
  A two-layer graph convolution over 100000 nodes and 1.6 million edges (plus one self loop per node):

      out = A · (relu(A · (X · W1) + b1) · W2) + b2,

  where A is the symmetrically degree-normalised adjacency: entry (d, s) sums deg(s)^(-1/2) · deg(d)^(-1/2) over the
  edges s → d, deg counting the edges into a node (and 0^(-1/2) replaced by 0). Both programs apply A by the same
  host operations on the edge list — a scatter-add of ones for the degrees, gathers of the normalised degrees and
  of the source rows, a scatter-add of the scaled rows — and add the bias by the same broadcasts. The kernel
  computes the two dense products X · W1 (100000 × 128 by 128 × 32) and H · W2 (100000 × 32 by 32 × 32) by a
  pallas_call each, twenty blocks of 5000 rows against the whole weight, narrowing the operands to bf16 first; the
  reference takes each product whole.

  On the extended reals the narrowing is the identity and a product into a zero accumulator is the sum over the
  contracted axis, so each pallas_call's output array is the whole product (row r of X · W only reads row r of X,
  and the twenty row blocks cover the array): Proof/Region0.lean, Proof/Region1.lean over the row-tile law of
  Proof/LibTile.lean. No law beyond the re-indexing of those finite sums joins the two sides, so finiteness of the
  inputs is never used. Proof/KernelRun.lean states the idealized kernel's run with every buffer named at the end
  (the frame certificate's launch with the final reading left open); Proof/Bridge.lean walks the result buffer back
  through the host stretches and the two regions to the reference's composed term; Proof/RefRunPatched.lean is
  the reference's run. The three frames are the generated frame certificates and the reference's run with the
  result dropped; the idealization rewrote no operation, so `preserves` has nothing to state.
-/
import proofs.«104350_j14637248544872_1_alg».proof.Defs
import proofs.«104350_j14637248544872_1_alg».proof.Proof.Gen.Kernel
import proofs.«104350_j14637248544872_1_alg».proof.Proof.Gen.Kernel.Skeleton
import proofs.«104350_j14637248544872_1_alg».proof.Proof.Gen.Kernel.Launch
import proofs.«104350_j14637248544872_1_alg».proof.Proof.Gen.Kernel.Points
import proofs.«104350_j14637248544872_1_alg».proof.Proof.Gen.Kernel.Frame
import proofs.«104350_j14637248544872_1_alg».proof.Proof.Gen.KernelIdeal
import proofs.«104350_j14637248544872_1_alg».proof.Proof.Gen.KernelIdeal.Skeleton
import proofs.«104350_j14637248544872_1_alg».proof.Proof.Gen.KernelIdeal.Launch
import proofs.«104350_j14637248544872_1_alg».proof.Proof.Gen.KernelIdeal.Points
import proofs.«104350_j14637248544872_1_alg».proof.Proof.Gen.KernelIdeal.Frame
import proofs.«104350_j14637248544872_1_alg».proof.Proof.Gen.ReferenceIdeal
import proofs.«104350_j14637248544872_1_alg».proof.Proof.Gen.Pre_finite_inputs
import proofs.«104350_j14637248544872_1_alg».proof.Proof.RefRunPatched
import proofs.«104350_j14637248544872_1_alg».proof.Proof.KernelRun
import proofs.«104350_j14637248544872_1_alg».proof.Proof.Bridge
import Idealize.ShloMosaic.Adequacy
import Idealize.ShloMosaic.Init

noncomputable section

namespace Cert.Proof

open Idealize.ShloMosaic Idealize.SL.Sem

/-- The kernel as printed runs, and its argument arrays end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing: the idealized kernel is the kernel's own text read on the extended reals. -/
theorem preserves : Cert.preserves_Kernel_KernelIdeal := trivial

/-- From memories that agree on the six arguments both programs end with the same 100000 × 32 result: the
    reference's composed term, which the kernel's result buffer holds too (the walk back through its segments). -/
theorem algebraic : Cert.algebraic_KernelIdeal_ReferenceIdeal := by
  intro m ρ m' ρ' _ hagree
  refine ⟨fun c => Cert.ReferenceIdeal.ValueP.res_main_v90 (F := Ideal) m' c, ?_,
    Cert.ReferenceIdeal.ValueP.run (F := Ideal) m' ρ'⟩
  exact (θ_run Cert.KernelIdeal.defs _ _).mono
    (fun r h c => ⟨(h c).1.trans (Cert.KernelIdeal.Bridge.result_eq m ρ c m' hagree), (h c).2⟩)
    (Cert.KernelIdeal.RunValue.run_result (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
